-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S1600000 : Shape := ⟨1, ![1600000]⟩
abbrev S1600000x64 : Shape := ⟨2, ![1600000, 64]⟩
abbrev S50000x256 : Shape := ⟨2, ![50000, 256]⟩
abbrev S64x256 : Shape := ⟨2, ![64, 256]⟩
abbrev S256 : Shape := ⟨1, ![256]⟩
abbrev S256x256 : Shape := ⟨2, ![256, 256]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S50000x256 : S_.BroadcastsInDim S50000x256 (![] : Fin 0 → Fin S50000x256.rank)
  reducesTo_S50000x256_S_d0_1 : S50000x256.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_arg6 : FVec F S256x256 .f32) (main_arg7 : FVec F S256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000 .f32) (main_arg1 : IVec S1600000 32) (main_arg2 : FVec F S1600000x64 .f32) (main_arg3 : FVec F S50000x256 .f32) (main_arg4 : FVec F S64x256 .f32) (main_arg5 : FVec F S256 .f32) (main_arg6 : FVec F S256x256 .f32) (main_arg7 : FVec F S256 .f32) : IVec S_ 1 :=
  let main_v0 : FVec F S50000 .f32 := Host.absf main_arg0
  let main_cst : FVec F S_ .f32 := constant S_ .f32 0x7F800000#32
  let main_v1 : FVec F S50000 .f32 := broadcastInDim S50000 ![] bcast_S_S50000 main_cst
  let main_v2 : IVec S50000 1 := cmpf .olt main_v0 main_v1
  let main_c : IVec S_ 1 := constantI S_ 1 1#1
  let main_v3 : IVec S_ 1 := (fun x v => Host.reduce IntOp.andi x v reducesTo_S50000_S_d0 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_arg6 main_arg7 main_v13 main_v16
-- ==== Kernel.lean ====
abbrev S50000 : Shape := ⟨1, ![50000]⟩
abbrev S1600000 : Shape := ⟨1, ![1600000]⟩
abbrev S1600000x64 : Shape := ⟨2, ![1600000, 64]⟩
abbrev S50000x256 : Shape := ⟨2, ![50000, 256]⟩
abbrev S64x256 : Shape := ⟨2, ![64, 256]⟩
abbrev S256 : Shape := ⟨1, ![256]⟩
abbrev S256x256 : Shape := ⟨2, ![256, 256]⟩
abbrev S_ : Shape := ⟨0, ![]⟩
abbrev S50000x64 : Shape := ⟨2, ![50000, 64]⟩
abbrev S1600000x1 : Shape := ⟨2, ![1600000, 1]⟩
abbrev S50000x1 : Shape := ⟨2, ![50000, 1]⟩
abbrev S1x256 : Shape := ⟨2, ![1, 256]⟩
abbrev S2000x64 : Shape := ⟨2, ![2000, 64]⟩
abbrev S2000x1 : Shape := ⟨2, ![2000, 1]⟩
abbrev S2000x256 : Shape := ⟨2, ![2000, 256]⟩

abbrev nBuf : Space → Nat
  | .hbm => 16
  | .vmem => 12
  | .smem => 0
  | _ => 0

abbrev bufTy : (tb : Table) → Fin (tcTables nBuf tb) → BufTy
  | .hbm, ⟨0, _⟩ => ⟨S50000, .f32⟩
  | .hbm, ⟨1, _⟩ => ⟨S1600000, .i32⟩
  | .hbm, ⟨2, _⟩ => ⟨S1600000x64, .f32⟩
  | .hbm, ⟨3, _⟩ => ⟨S50000x256, .f32⟩
  | .hbm, ⟨4, _⟩ => ⟨S64x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S_, .f32⟩
  | .hbm, ⟨9, _⟩ => ⟨S50000x64, .f32⟩
  | .hbm, ⟨10, _⟩ => ⟨S1600000x1, .i32⟩
  | .hbm, ⟨11, _⟩ => ⟨S50000x64, .f32⟩
  | .hbm, ⟨12, _⟩ => ⟨S50000x1, .f32⟩
  | .hbm, ⟨13, _⟩ => ⟨S1x256, .f32⟩
  | .hbm, ⟨14, _⟩ => ⟨S1x256, .f32⟩
  | .hbm, ⟨15, _⟩ => ⟨S50000x256, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x256, .f32⟩
  | .local _ .vmem, ⟨5, _⟩ => ⟨S2000x256, .f32⟩
  | .local _ .vmem, ⟨6, _⟩ => ⟨S64x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | _, _ => ⟨S50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  shapeCasts_S50000_S50000x1 : S50000.ShapeCasts S50000x1
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  broadcasts_S2000x1_S2000x64 : S2000x1.Broadcasts S2000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000x64_S1600000x1_S1600000x64_1_0_0_1_wf : ScatterDims.WF S50000x64 S1600000x1 S1600000x64 [1] [0] [0] 1
  dot_S2000x64_S64x256_S2000x256_1_0_0_1_n_n_wf : DotDims.WF S2000x64 S64x256 S2000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)

variable [Facts₀]

def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v2) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000 : Shape := ⟨1, ![50000]⟩
abbrev S1600000 : Shape := ⟨1, ![1600000]⟩
abbrev S1600000x64 : Shape := ⟨2, ![1600000, 64]⟩
abbrev S50000x256 : Shape := ⟨2, ![50000, 256]⟩
abbrev S64x256 : Shape := ⟨2, ![64, 256]⟩
abbrev S256 : Shape := ⟨1, ![256]⟩
abbrev S256x256 : Shape := ⟨2, ![256, 256]⟩
abbrev S_ : Shape := ⟨0, ![]⟩
abbrev S50000x64 : Shape := ⟨2, ![50000, 64]⟩
abbrev S1600000x1 : Shape := ⟨2, ![1600000, 1]⟩
abbrev S50000x1 : Shape := ⟨2, ![50000, 1]⟩
abbrev S1x256 : Shape := ⟨2, ![1, 256]⟩

abbrev nBuf : Space → Nat
  | .hbm => 27
  | .vmem => 0
  | .smem => 0
  | _ => 0

abbrev bufTy : (tb : Table) → Fin (tcTables nBuf tb) → BufTy
  | .hbm, ⟨0, _⟩ => ⟨S50000, .f32⟩
  | .hbm, ⟨1, _⟩ => ⟨S1600000, .i32⟩
  | .hbm, ⟨2, _⟩ => ⟨S1600000x64, .f32⟩
  | .hbm, ⟨3, _⟩ => ⟨S50000x256, .f32⟩
  | .hbm, ⟨4, _⟩ => ⟨S64x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S_, .f32⟩
  | .hbm, ⟨9, _⟩ => ⟨S50000x64, .f32⟩
  | .hbm, ⟨10, _⟩ => ⟨S1600000x1, .i32⟩
  | .hbm, ⟨11, _⟩ => ⟨S50000x64, .f32⟩
  | .hbm, ⟨12, _⟩ => ⟨S50000x1, .f32⟩
  | .hbm, ⟨13, _⟩ => ⟨S50000x64, .f32⟩
  | .hbm, ⟨14, _⟩ => ⟨S50000x64, .f32⟩
  | .hbm, ⟨15, _⟩ => ⟨S50000x256, .f32⟩
  | .hbm, ⟨16, _⟩ => ⟨S1x256, .f32⟩
  | .hbm, ⟨17, _⟩ => ⟨S50000x256, .f32⟩
  | .hbm, ⟨18, _⟩ => ⟨S50000x256, .f32⟩
  | .hbm, ⟨19, _⟩ => ⟨S50000x256, .f32⟩
  | .hbm, ⟨20, _⟩ => ⟨S50000x256, .f32⟩
  | .hbm, ⟨21, _⟩ => ⟨S1x256, .f32⟩
  | .hbm, ⟨22, _⟩ => ⟨S50000x256, .f32⟩
  | .hbm, ⟨23, _⟩ => ⟨S50000x256, .f32⟩
  | .hbm, ⟨24, _⟩ => ⟨S_, .f32⟩
  | .hbm, ⟨25, _⟩ => ⟨S50000x256, .f32⟩
  | .hbm, ⟨26, _⟩ => ⟨S50000x256, .f32⟩
  | _, _ => ⟨S50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  scatter_S50000x64_S1600000x1_S1600000x64_1_0_0_1_wf : ScatterDims.WF S50000x64 S1600000x1 S1600000x64 [1] [0] [0] 1
  dot_S50000x64_S64x256_S50000x256_1_0_0_1_n_n_wf : DotDims.WF S50000x64 S64x256 S50000x256 [1] [0] [0] [1] [] []
  dot_S50000x256_S256x256_S50000x256_1_0_0_1_n_n_wf : DotDims.WF S50000x256 S256x256 S50000x256 [1] [0] [0] [1] [] []

variable [Facts₀]

def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The layer both programs compute, entry by entry over the extended reals.

  Nodes are rows. For node r the edge features summed into it, A (r, ·), are divided by the node's degree D r, mapped by
  the pass weights and shifted by the pass bias; the node's own features X (r, ·) are mapped by the self weights and added;
  the self bias is added last; the result is clipped below at zero:

    out (r, j) = max ((((∑ k, A (r, k) / D r · Wp (k, j)) + bp j) + ∑ k, X (r, k) · Ws (k, j)) + bs j) 0.

  The quotient is the extended reals' total division and the sums associate exactly as written, so no hypothesis on
  the entries (finiteness, a nonzero degree) is needed to state it, and none to compare two programs that both compute it
  in this order. The summed edge features A enter as an array of their own: how they are summed is not opened here.
-/
import Idealize.ShloMosaic.PureOps.Ideal.Laws
import Idealize.ShloMosaic.Lib.ValueIdx

noncomputable section

namespace Cert.NodeConv

open Idealize.ShloMosaic Idealize.ShloMosaic.ValueIdx

/-- Entry (r, j) of the layer's output, from the summed edge features `A`, the degrees `D`, the node features `X`, the
    two weight matrices and the two bias vectors. -/
def entry (A : FVec Ideal ⟨2, ![50000, 64]⟩ .f32) (D : FVec Ideal ⟨1, ![50000]⟩ .f32)
    (X : FVec Ideal ⟨2, ![50000, 256]⟩ .f32) (Wp : FVec Ideal ⟨2, ![64, 256]⟩ .f32) (bp : FVec Ideal ⟨1, ![256]⟩ .f32)
    (Ws : FVec Ideal ⟨2, ![256, 256]⟩ .f32) (bs : FVec Ideal ⟨1, ![256]⟩ .f32) (r : Fin 50000) (j : Fin 256) : EReal :=
  max ((((∑ k : Fin 64, Ideal.div (A (ix2 r k)) (D (ix1 r)) * Wp (ix2 k j)) + bp (ix1 j))
      + ∑ k : Fin 256, X (ix2 r k) * Ws (ix2 k j)) + bs (ix1 j)) (Ideal.ofBits .f32 0x00000000#32)

/-- The whole output array: at an index, the entry at the index's two coordinates. -/
def layer (A : FVec Ideal ⟨2, ![50000, 64]⟩ .f32) (D : FVec Ideal ⟨1, ![50000]⟩ .f32)
    (X : FVec Ideal ⟨2, ![50000, 256]⟩ .f32) (Wp : FVec Ideal ⟨2, ![64, 256]⟩ .f32) (bp : FVec Ideal ⟨1, ![256]⟩ .f32)
    (Ws : FVec Ideal ⟨2, ![256, 256]⟩ .f32) (bs : FVec Ideal ⟨1, ![256]⟩ .f32) : FVec Ideal ⟨2, ![50000, 256]⟩ .f32 :=
  fun i => entry A D X Wp bp Ws bs (i 0) (i 1)

/-- At the index built from coordinates (r, j) the array holds entry (r, j). -/
theorem layer_ix2 (A : FVec Ideal ⟨2, ![50000, 64]⟩ .f32) (D : FVec Ideal ⟨1, ![50000]⟩ .f32)
    (X : FVec Ideal ⟨2, ![50000, 256]⟩ .f32) (Wp : FVec Ideal ⟨2, ![64, 256]⟩ .f32) (bp : FVec Ideal ⟨1, ![256]⟩ .f32)
    (Ws : FVec Ideal ⟨2, ![256, 256]⟩ .f32) (bs : FVec Ideal ⟨1, ![256]⟩ .f32) (r : Fin 50000) (j : Fin 256) :
    layer A D X Wp bp Ws bs (ix2 r j) = entry A D X Wp bp Ws bs r j := rfl

end Cert.NodeConv

end
-- ==== Proof.RefLayer.lean ====
/-
  The reference's result is the layer.

  The reference divides the summed edge features by the degrees (a column broadcast along the feature axis), multiplies by
  the pass weights, adds the pass bias (a row broadcast down the nodes), adds the product of the node features with the
  self weights, adds the self bias and clips at zero. Read at an index (r, j), one operation at a time, that is entry
  (r, j) of the layer: each matrix product is the sum over the contracted coordinate k of left (r, k) times right (k, j),
  the degree column read at (r, k) is the degree of node r for every k, and each bias row read at (r, j) is the bias's
  entry j. The summed edge features are kept as the reference's own array and not opened.
-/
import proofs.«125601_j32701880992040_1_alg».proof.Proof.Gen.ReferenceIdeal.Read
import proofs.«125601_j32701880992040_1_alg».proof.Proof.Spec

noncomputable section

namespace Cert.ReferenceIdeal.RefLayer

open Cert.ReferenceIdeal Cert.ReferenceIdeal.Read Idealize.ShloMosaic Idealize.ShloMosaic.ValueIdx Cert.NodeConv

/-- The pass product's left operand index at output (p, q) and contracted coordinate k is (p, k). -/
theorem lidx_pass (p : Fin 50000) (q : Fin 256) (k : Fin 64) : lidx_main_v6 (ix2 p q) k = ix2 p k :=
  funext fun a => Fin.ext (by match a with | ⟨0, _⟩ => rfl | ⟨1, _⟩ => rfl)
/-- Its right operand index is (k, q). -/
theorem ridx_pass (p : Fin 50000) (q : Fin 256) (k : Fin 64) : ridx_main_v6 (ix2 p q) k = ix2 k q :=
  funext fun a => Fin.ext (by match a with | ⟨0, _⟩ => rfl | ⟨1, _⟩ => rfl)
/-- The self product's left operand index at output (p, q) and contracted coordinate k is (p, k). -/
theorem lidx_self (p : Fin 50000) (q : Fin 256) (k : Fin 256) : lidx_main_v10 (ix2 p q) k = ix2 p k :=
  funext fun a => Fin.ext (by match a with | ⟨0, _⟩ => rfl | ⟨1, _⟩ => rfl)
/-- Its right operand index is (k, q). -/
theorem ridx_self (p : Fin 50000) (q : Fin 256) (k : Fin 256) : ridx_main_v10 (ix2 p q) k = ix2 k q :=
  funext fun a => Fin.ext (by match a with | ⟨0, _⟩ => rfl | ⟨1, _⟩ => rfl)
/-- The degree column broadcast along the features, read at (p, k), reads the degree vector at p. -/
theorem idx_degree (p : Fin 50000) (k : Fin 64) : idx_main_v3 (idx_main_v4 (ix2 p k)) = ix1 p :=
  funext fun a => Fin.ext (by match a with | ⟨0, _⟩ => rfl)
/-- The pass bias row broadcast down the nodes, read at (p, q), reads the bias vector at q. -/
theorem idx_pass_bias (p : Fin 50000) (q : Fin 256) : idx_main_v7 (idx_main_v8 (ix2 p q)) = ix1 q :=
  funext fun a => Fin.ext (by match a with | ⟨0, _⟩ => rfl)
/-- The same for the self bias. -/
theorem idx_self_bias (p : Fin 50000) (q : Fin 256) : idx_main_v12 (idx_main_v13 (ix2 p q)) = ix1 q :=
  funext fun a => Fin.ext (by match a with | ⟨0, _⟩ => rfl)

/-- The reference's last stage, as a function of its arguments, is the layer of the reference's summed edge features, the
    degrees, the node features, the weights and the biases. -/
theorem result_eq (x0 : (⟨S50000, .f32⟩ : BufTy).Contents (Elt Ideal)) (x1 : (⟨S1600000, .i32⟩ : BufTy).Contents (Elt Ideal))
    (x2 : (⟨S1600000x64, .f32⟩ : BufTy).Contents (Elt Ideal)) (x3 : (⟨S50000x256, .f32⟩ : BufTy).Contents (Elt Ideal))
    (x4 : (⟨S64x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) :
    val_main_v15 (F := Ideal) x0 x1 x2 x3 x4 x5 x6 x7 = layer (val_main_v2 (F := Ideal) x1 x2) x0 x3 x4 x5 x6 x7 := by
  funext i
  obtain ⟨p, q, rfl⟩ : ∃ (p : Fin 50000) (q : Fin 256), i = ix2 p q := ⟨i 0, i 1, eq_ix2 i⟩
  rw [layer_ix2, val_main_v15_apply, val_main_v14_apply, val_main_v13_apply, val_main_v12_apply, val_main_v11_apply,
    val_main_v10_apply, val_main_v9_apply, val_main_v8_apply, val_main_v7_apply, val_main_v6_apply,
    val_main_call0_v0_apply, val_main_call0_cst_apply]
  simp only [val_main_v5_apply, val_main_v4_apply, val_main_v3_apply, lidx_pass, ridx_pass, lidx_self, ridx_self,
    idx_degree, idx_pass_bias, idx_self_bias]
  rfl

end Cert.ReferenceIdeal.RefLayer

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.HostWindows.lean ====
/-
  The arrays the host writes before the kernel is launched.

  Three of the kernel's operands are not arguments but values the host computes first. The summed edge features are a
  scatter-add of the edge feature rows into a zero array at the rows the edge's destination indices name; that sum is
  kept here as one named function `summed` of the destination indices and the edge features and never opened. The
  degrees are reshaped from a vector of 50000 entries to a column, which at (r, 0) holds the vector's entry r; each bias
  is reshaped from a vector of 256 entries to a row, which at (0, j) holds the vector's entry j: a reshape keeps the
  row-major order, and in both cases the two indices have the same row-major position.
-/
import proofs.«125601_j32701880992040_1_alg».proof.Proof.Gen.KernelIdeal.Frame
import proofs.«125601_j32701880992040_1_alg».proof.Proof.LibColumns
import proofs.«125601_j32701880992040_1_alg».proof.Proof.LibRowCast
import Idealize.ShloMosaic.Lib.StableHlo.Run

noncomputable section

namespace Cert.KernelIdeal.HostWindows

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The edge features summed into their destination nodes: the host's scatter-add of the rows `x2` into a zero array
    at the rows the index vector `x1` (as a column) names. -/
def summed (x1 : (⟨S1600000, .i32⟩ : BufTy).Contents (Elt Ideal)) (x2 : (⟨S1600000x64, .f32⟩ : BufTy).Contents (Elt Ideal)) :
    (⟨S50000x64, .f32⟩ : BufTy).Contents (Elt Ideal) :=
  Host.scatterAdd scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 x1) x2

/-- When the kernel is launched its first operand holds the summed edge features of the launch's index and feature
    arguments. -/
theorem V_summed (c : Dev nD) :
    (V m c main_v2 : S50000x64.Idx → EReal)
      = summed (m ((c : Thread nD τ).loc main_arg1)) (m ((c : Thread nD τ).loc main_arg2)) := by
  dsimp only [Gen.V, Gen.hostOps0]; after_results; rfl

/-- Its second operand, the degree column, holds at (r, 0) the degree argument's entry r. -/
theorem V_degree (c : Dev nD) (r : Fin 50000) :
    (V m c main_v3 : S50000x1.Idx → EReal) (ix2 r (0 : Fin 1)) = (m ((c : Thread nD τ).loc main_arg0) : S50000.Idx → EReal) (ix1 r) := by
  have e : (V m c main_v3 : S50000x1.Idx → EReal)
      = shapeCast S50000x1 (m ((c : Thread nD τ).loc main_arg0) : S50000.Idx → EReal) shapeCasts_S50000_S50000x1 := by
    dsimp only [Gen.V, Gen.hostOps0]; after_results; rfl
  rw [e]
  exact Cert.Columns.shapeCast_a_a1_apply _ shapeCasts_S50000_S50000x1 r (0 : Fin 1)

/-- The pass bias row holds at (0, j) the pass bias argument's entry j. -/
theorem V_pass_bias (c : Dev nD) (j : Fin 256) :
    (V m c main_v4 : S1x256.Idx → EReal) (ix2 (0 : Fin 1) j) = (m ((c : Thread nD τ).loc main_arg5) : S256.Idx → EReal) (ix1 j) := by
  have e : (V m c main_v4 : S1x256.Idx → EReal)
      = shapeCast S1x256 (m ((c : Thread nD τ).loc main_arg5) : S256.Idx → EReal) shapeCasts_S256_S1x256 := by
    dsimp only [Gen.V, Gen.hostOps0]; after_results; rfl
  rw [e]
  exact Cert.RowCast.shapeCast_row_apply _ shapeCasts_S256_S1x256 (0 : Fin 1) j

/-- The self bias row holds at (0, j) the self bias argument's entry j. -/
theorem V_self_bias (c : Dev nD) (j : Fin 256) :
    (V m c main_v5 : S1x256.Idx → EReal) (ix2 (0 : Fin 1) j) = (m ((c : Thread nD τ).loc main_arg7) : S256.Idx → EReal) (ix1 j) := by
  have e : (V m c main_v5 : S1x256.Idx → EReal)
      = shapeCast S1x256 (m ((c : Thread nD τ).loc main_arg7) : S256.Idx → EReal) shapeCasts_S256_S1x256 := by
    dsimp only [Gen.V, Gen.hostOps0]; after_results; rfl
  rw [e]
  exact Cert.RowCast.shapeCast_row_apply _ shapeCasts_S256_S1x256 (0 : Fin 1) j

end Cert.KernelIdeal.HostWindows

end
-- ==== Proof.Blocks.lean ====
/-
  Each window's block at a grid point, read as entries of its array.

  The grid has 25 points and point t works on nodes 2000·t … 2000·t + 1999. The three windows that move with the point
  — the summed edge features, the degree column and the node features — have, at point t, block index (t, 0): entry
  (p, ·) of such a block is entry (2000·t + p, ·) of its array. The four windows that hold the weights and the bias rows
  stay at block (0, 0) and are the whole array at every point. The output window moves like the first three.
  (A block's coordinate on an axis is always block index × block extent + the coordinate inside the block.)
  Read through these, a block's entries are entries of the launch's arguments: of the summed edge features, and — by what
  the host wrote into the degree column and the bias rows — of the degree vector and the bias vectors themselves.
-/
import proofs.«125601_j32701880992040_1_alg».proof.Proof.Gen.KernelIdeal.Frame
import proofs.«125601_j32701880992040_1_alg».proof.Proof.HostWindows
import Idealize.ShloMosaic.Lib.Pipeline.Value

noncomputable section

namespace Cert.KernelIdeal.Blocks

open Cert.KernelIdeal Cert.KernelIdeal.Gen Cert.KernelIdeal.HostWindows
open Idealize.ShloMosaic Idealize.ShloMosaic.TcCoe Idealize.SL.Sem Idealize.ShloMosaic.ValueIdx

variable (m : (ℓ : Loc nD τ sig) → Buf (Elt Ideal) ℓ)

/-- The printed index maps over the 25 grid points: the three moving input windows and the output window sit at block
    (t, 0), the weights and bias rows at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Node p of point t's block is node 2000·t + p of the graph. -/
def node (t : Fin cfg0.N) (p : Fin 2000) : Fin 50000 :=
  ⟨t.val * 2000 + p.val, by have h := t.isLt; have hN : cfg0.N = 25 := N_0; have hp := p.isLt; omega⟩

theorem node_val (t : Fin cfg0.N) (p : Fin 2000) : (node t p).val = t.val * 2000 + p.val := rfl

/-! ## A block read through its window, for any contents of the arrays

Each lemma is stated for an arbitrary assignment `W` of contents to the buffers, so that what the host computed into an
array before the launch is never looked into while the block's coordinates are matched with the array's. -/

/-- Window 0's block at point t, entry (p, k), is its array's entry (2000·t + p, k). -/
theorem read0 (c : Dev nD) (W : (b : Ref sig .tc) → Buf (Elt Ideal) ((c : Thread nD τ).loc b)) (t : Fin cfg0.N) (p : Fin 2000) (k : Fin 64) :
    (((cfg0.win 0).blk t).view.read (Elt Ideal) (W (Pipeline.arrRef spec0 0)) : Vec Ideal S2000x64 .f32) (ix2 p k)
      = (W main_v2 : S50000x64.Idx → EReal) (ix2 (node t p) k) := by
  obtain ⟨⟨e0, e1⟩, -⟩ := index_facts t
  rw [View.read_apply]
  show (W main_v2 : S50000x64.Idx → EReal) _ = (W main_v2 : S50000x64.Idx → EReal) _
  refine congrArg (W main_v2 : S50000x64.Idx → EReal) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 64 + 1 * k.val = k.val; rw [e1]; omega

/-- Window 1's block at point t, entry (p, 0), is its array's entry (2000·t + p, 0). -/
theorem read1 (c : Dev nD) (W : (b : Ref sig .tc) → Buf (Elt Ideal) ((c : Thread nD τ).loc b)) (t : Fin cfg0.N) (p : Fin 2000) :
    (((cfg0.win 1).blk t).view.read (Elt Ideal) (W (Pipeline.arrRef spec0 1)) : Vec Ideal S2000x1 .f32) (ix2 p (0 : Fin 1))
      = (W main_v3 : S50000x1.Idx → EReal) (ix2 (node t p) (0 : Fin 1)) := by
  obtain ⟨-, ⟨e0, e1⟩, -⟩ := index_facts t
  rw [View.read_apply]
  show (W main_v3 : S50000x1.Idx → EReal) _ = (W main_v3 : S50000x1.Idx → EReal) _
  refine congrArg (W main_v3 : S50000x1.Idx → EReal) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 1 + 1 * 0 = 0; rw [e1]

/-- Window 2's block at point t, entry (p, k), is its array's entry (2000·t + p, k). -/
theorem read2 (c : Dev nD) (W : (b : Ref sig .tc) → Buf (Elt Ideal) ((c : Thread nD τ).loc b)) (t : Fin cfg0.N) (p : Fin 2000) (k : Fin 256) :
    (((cfg0.win 2).blk t).view.read (Elt Ideal) (W (Pipeline.arrRef spec0 2)) : Vec Ideal S2000x256 .f32) (ix2 p k)
      = (W main_arg3 : S50000x256.Idx → EReal) (ix2 (node t p) k) := by
  obtain ⟨-, -, ⟨e0, e1⟩, -⟩ := index_facts t
  rw [View.read_apply]
  show (W main_arg3 : S50000x256.Idx → EReal) _ = (W main_arg3 : S50000x256.Idx → EReal) _
  refine congrArg (W main_arg3 : S50000x256.Idx → EReal) (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 256 + 1 * k.val = k.val; rw [e1]; omega

/-- Window 3's block is its whole array at every point. -/
theorem read3 (c : Dev nD) (W : (b : Ref sig .tc) → Buf (Elt Ideal) ((c : Thread nD τ).loc b)) (t : Fin cfg0.N) (k : Fin 64) (q : Fin 256) :
    (((cfg0.win 3).blk t).view.read (Elt Ideal) (W (Pipeline.arrRef spec0 3)) : Vec Ideal S64x256 .f32) (ix2 k q)
      = (W main_arg4 : S64x256.Idx → EReal) (ix2 k q) := by
  obtain ⟨-, -, -, ⟨e0, e1⟩, -⟩ := index_facts t
  rw [View.read_apply]
  show (W main_arg4 : S64x256.Idx → EReal) _ = (W main_arg4 : S64x256.Idx → EReal) _
  refine congrArg (W main_arg4 : S64x256.Idx → EReal) (funext fun a => Fin.ext ?_)
  match a with
  | ⟨0, _⟩ => show win0_3.index t (0 : Fin 2) * 64 + 1 * k.val = k.val; rw [e0]; omega
  | ⟨1, _⟩ => show win0_3.index t (1 : Fin 2) * 256 + 1 * q.val = q.val; rw [e1]; omega

/-- Window 4's block is its whole array at every point. -/
theorem read4 (c : Dev nD) (W : (b : Ref sig .tc) → Buf (Elt Ideal) ((c : Thread nD τ).loc b)) (t : Fin cfg0.N) (q : Fin 256) :
    (((cfg0.win 4).blk t).view.read (Elt Ideal) (W (Pipeline.arrRef spec0 4)) : Vec Ideal S1x256 .f32) (ix2 (0 : Fin 1) q)
      = (W main_v4 : S1x256.Idx → EReal) (ix2 (0 : Fin 1) q) := by
  obtain ⟨-, -, -, -, ⟨e0, e1⟩, -⟩ := index_facts t
  rw [View.read_apply]
  show (W main_v4 : S1x256.Idx → EReal) _ = (W main_v4 : S1x256.Idx → EReal) _
  refine congrArg (W main_v4 : S1x256.Idx → EReal) (funext fun a => Fin.ext ?_)
  match a with
  | ⟨0, _⟩ => show win0_4.index t (0 : Fin 2) * 1 + 1 * 0 = 0; rw [e0]
  | ⟨1, _⟩ => show win0_4.index t (1 : Fin 2) * 256 + 1 * q.val = q.val; rw [e1]; omega

/-- Window 5's block is its whole array at every point. -/
theorem read5 (c : Dev nD) (W : (b : Ref sig .tc) → Buf (Elt Ideal) ((c : Thread nD τ).loc b)) (t : Fin cfg0.N) (k : Fin 256) (q : Fin 256) :
    (((cfg0.win 5).blk t).view.read (Elt Ideal) (W (Pipeline.arrRef spec0 5)) : Vec Ideal S256x256 .f32) (ix2 k q)
      = (W main_arg6 : S256x256.Idx → EReal) (ix2 k q) := by
  obtain ⟨-, -, -, -, -, ⟨e0, e1⟩, -⟩ := index_facts t
  rw [View.read_apply]
  show (W main_arg6 : S256x256.Idx → EReal) _ = (W main_arg6 : S256x256.Idx → EReal) _
  refine congrArg (W main_arg6 : S256x256.Idx → EReal) (funext fun a => Fin.ext ?_)
  match a with
  | ⟨0, _⟩ => show win0_5.index t (0 : Fin 2) * 256 + 1 * k.val = k.val; rw [e0]; omega
  | ⟨1, _⟩ => show win0_5.index t (1 : Fin 2) * 256 + 1 * q.val = q.val; rw [e1]; omega

/-- Window 6's block is its whole array at every point. -/
theorem read6 (c : Dev nD) (W : (b : Ref sig .tc) → Buf (Elt Ideal) ((c : Thread nD τ).loc b)) (t : Fin cfg0.N) (q : Fin 256) :
    (((cfg0.win 6).blk t).view.read (Elt Ideal) (W (Pipeline.arrRef spec0 6)) : Vec Ideal S1x256 .f32) (ix2 (0 : Fin 1) q)
      = (W main_v5 : S1x256.Idx → EReal) (ix2 (0 : Fin 1) q) := by
  obtain ⟨-, -, -, -, -, -, ⟨e0, e1⟩, -⟩ := index_facts t
  rw [View.read_apply]
  show (W main_v5 : S1x256.Idx → EReal) _ = (W main_v5 : S1x256.Idx → EReal) _
  refine congrArg (W main_v5 : S1x256.Idx → EReal) (funext fun a => Fin.ext ?_)
  match a with
  | ⟨0, _⟩ => show win0_6.index t (0 : Fin 2) * 1 + 1 * 0 = 0; rw [e0]
  | ⟨1, _⟩ => show win0_6.index t (1 : Fin 2) * 256 + 1 * q.val = q.val; rw [e1]; omega

/-! ## The blocks of the launch, as entries of the arguments -/

/-- The summed-features block at point t, entry (p, k): the summed edge features of node 2000·t + p, channel k. -/
theorem summed_block (c : Dev nD) (t : Fin cfg0.N) (p : Fin 2000) (k : Fin 64) :
    (iblk m c 0 t : Vec Ideal S2000x64 .f32) (ix2 p k)
      = summed (m ((c : Thread nD τ).loc main_arg1)) (m ((c : Thread nD τ).loc main_arg2)) (ix2 (node t p) k) := by
  rw [← V_summed m c]
  unfold iblk
  exact read0 c (V m c) t p k

/-- The degree block at point t, entry (p, 0): the degree of node 2000·t + p. -/
theorem degree_block (c : Dev nD) (t : Fin cfg0.N) (p : Fin 2000) :
    (iblk m c 1 t : Vec Ideal S2000x1 .f32) (ix2 p (0 : Fin 1))
      = (m ((c : Thread nD τ).loc main_arg0) : S50000.Idx → EReal) (ix1 (node t p)) := by
  rw [← V_degree m c (node t p)]
  unfold iblk
  exact read1 c (V m c) t p

/-- The node-features block at point t, entry (p, k): feature k of node 2000·t + p. -/
theorem features_block (c : Dev nD) (t : Fin cfg0.N) (p : Fin 2000) (k : Fin 256) :
    (iblk m c 2 t : Vec Ideal S2000x256 .f32) (ix2 p k)
      = (m ((c : Thread nD τ).loc main_arg3) : S50000x256.Idx → EReal) (ix2 (node t p) k) := by
  rw [← V_main_arg3 m c]
  unfold iblk
  exact read2 c (V m c) t p k

/-- The pass weights' block is the whole matrix at every point. -/
theorem pass_weights_block (c : Dev nD) (t : Fin cfg0.N) (k : Fin 64) (q : Fin 256) :
    (iblk m c 3 t : Vec Ideal S64x256 .f32) (ix2 k q)
      = (m ((c : Thread nD τ).loc main_arg4) : S64x256.Idx → EReal) (ix2 k q) := by
  rw [← V_main_arg4 m c]
  unfold iblk
  exact read3 c (V m c) t k q

/-- The pass bias row's block is the whole row: at (0, q) the pass bias's entry q. -/
theorem pass_bias_block (c : Dev nD) (t : Fin cfg0.N) (q : Fin 256) :
    (iblk m c 4 t : Vec Ideal S1x256 .f32) (ix2 (0 : Fin 1) q)
      = (m ((c : Thread nD τ).loc main_arg5) : S256.Idx → EReal) (ix1 q) := by
  rw [← V_pass_bias m c q]
  unfold iblk
  exact read4 c (V m c) t q

/-- The self weights' block is the whole matrix at every point. -/
theorem self_weights_block (c : Dev nD) (t : Fin cfg0.N) (k : Fin 256) (q : Fin 256) :
    (iblk m c 5 t : Vec Ideal S256x256 .f32) (ix2 k q)
      = (m ((c : Thread nD τ).loc main_arg6) : S256x256.Idx → EReal) (ix2 k q) := by
  rw [← V_main_arg6 m c]
  unfold iblk
  exact read5 c (V m c) t k q

/-- The self bias row's block is the whole row: at (0, q) the self bias's entry q. -/
theorem self_bias_block (c : Dev nD) (t : Fin cfg0.N) (q : Fin 256) :
    (iblk m c 6 t : Vec Ideal S1x256 .f32) (ix2 (0 : Fin 1) q)
      = (m ((c : Thread nD τ).loc main_arg7) : S256.Idx → EReal) (ix1 q) := by
  rw [← V_self_bias m c q]
  unfold iblk
  exact read6 c (V m c) t q
/-- Entry (p, q) of the output window's block at point t sits at (2000·t + p, q) of the output array. -/
theorem out_block_index (t : Fin cfg0.N) (p : Fin 2000) (q : Fin 256) :
    (((cfg0.win 7).blk t).view.emb (ix2 p q) : S50000x256.Idx) = ix2 (node t p) q := by
  obtain ⟨-, -, -, -, -, -, -, ⟨e0, e1⟩⟩ := index_facts t
  refine funext fun a => Fin.ext ?_
  match a with
  | ⟨0, _⟩ => show win0_7.index t (0 : Fin 2) * 2000 + 1 * p.val = t.val * 2000 + p.val; rw [e0]; omega
  | ⟨1, _⟩ => show win0_7.index t (1 : Fin 2) * 256 + 1 * q.val = q.val; rw [e1]; omega

end Cert.KernelIdeal.Blocks

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.BlockLayer.lean ====
/-
  What the kernel body computes from one point's blocks, read at an entry.

  At a grid point the body holds a block of 2000 nodes: their summed edge features a (2000 × 64), their degrees d as a
  column (2000 × 1), their own features x (2000 × 256), and the whole weight matrices and bias rows. It divides a by the
  degree column broadcast along the features, multiplies by the pass weights into a zero accumulator, adds the pass bias
  row broadcast down the block, adds the product of x with the self weights (again into a zero accumulator), adds the
  self bias row and clips at zero. The narrowing of the operands before the two products is the identity over the
  extended reals. Read at (p, q) that is

    max ((((∑ k, a (p, k) / d (p, 0) · wp (k, q)) + bp (0, q)) + ∑ k, x (p, k) · ws (k, q)) + bs (0, q)) 0,

  each product being the sum over the contracted coordinate of left (p, k) times right (k, q).
-/
import proofs.«125601_j32701880992040_1_alg».proof.Proof.Gen.KernelIdeal.Skeleton
import proofs.«125601_j32701880992040_1_alg».proof.Proof.LibDotRows
import proofs.«125601_j32701880992040_1_alg».proof.Proof.LibColumns
import proofs.«125601_j32701880992040_1_alg».proof.Proof.LibRowBroadcast
import Idealize.ShloMosaic.Lib.Pipeline.Value
import Idealize.ShloMosaic.PureOps.Ideal.Laws

noncomputable section

namespace Cert.KernelIdeal.BlockLayer

open Cert.KernelIdeal Cert.KernelIdeal.Gen Idealize.ShloMosaic Idealize.ShloMosaic.ValueIdx

/-- The block's pass product into a zero accumulator, at (p, q): the sum over the 64 edge channels. -/
theorem pass_product (l : FVec Ideal S2000x64 .bf16) (r : FVec Ideal S64x256 .bf16) (p : Fin 2000) (q : Fin 256) :
    matmul dot_S2000x64_S64x256_S2000x256_1_0_0_1_n_n none l r (constant (F := Ideal) S2000x256 .f32 0x00000000#32) (ix2 p q)
      = ∑ k : Fin 64, l (ix2 p k) * r (ix2 k q) := by
  refine (Ideal.matmul_constant_zero_apply dot_S2000x64_S64x256_S2000x256_1_0_0_1_n_n none l r (ix2 p q)).trans ?_
  dot_rows dot_S2000x64_S64x256_S2000x256_1_0_0_1_n_n S2000x64 S64x256 64

/-- The block's self product into a zero accumulator, at (p, q): the sum over the 256 node channels. -/
theorem self_product (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  refine (Ideal.matmul_constant_zero_apply dot_S2000x256_S256x256_S2000x256_1_0_0_1_n_n none l r (ix2 p q)).trans ?_
  dot_rows dot_S2000x256_S256x256_S2000x256_1_0_0_1_n_n S2000x256 S256x256 256

/-- The body's stored value at entry (p, q) of the block, from the blocks it loaded. -/
theorem pay_apply (v0 : Vec Ideal S2000x64 .f32) (v2 : Vec Ideal S2000x1 .f32) (v4 : Vec Ideal S2000x256 .f32)
    (v9 : Vec Ideal S64x256 .f32) (v11 : Vec Ideal S256x256 .f32) (v15 : Vec Ideal S1x256 .f32) (v17 : Vec Ideal S1x256 .f32)
    (p : Fin 2000) (q : Fin 256) :
    k0_pay1 (F := Ideal) v0 v2 v4 v9 v11 v15 v17 (ix2 p q)
      = max ((((∑ k : Fin 64, Ideal.div (v0 (ix2 p k)) (v2 (ix2 p (0 : Fin 1))) * v9 (ix2 k q)) + v15 (ix2 (0 : Fin 1) q))
          + ∑ k : Fin 256, v4 (ix2 p k) * v11 (ix2 k q)) + v17 (ix2 (0 : Fin 1) q)) (Ideal.ofBits .f32 0x00000000#32) := by
  unfold k0_pay1
  refine congrArg₂ max (congrArg₂ (· + ·) (congrArg₂ (· + ·) (congrArg₂ (· + ·) ?_ ?_) ?_) ?_) rfl
  · refine (pass_product _ _ p q).trans (Finset.sum_congr rfl fun k _ => ?_)
    refine congrArg₂ (· * ·) (congrArg₂ Ideal.div ?_ ?_) rfl
    · exact congrFun (shapeCast_self v0 shapeCasts_S2000x64_S2000x64) (ix2 p k)
    · exact (Cert.Columns.broadcastTo_a1_ab_apply _ broadcasts_S2000x1_S2000x64 p k).trans
        (congrFun (shapeCast_self v2 shapeCasts_S2000x1_S2000x1) (ix2 p (0 : Fin 1)))
  · exact (Cert.RowBroadcast.broadcastTo_1b_ab_apply _ broadcasts_S1x256_S2000x256 p q).trans
      (congrFun (shapeCast_self v15 shapeCasts_S1x256_S1x256) (ix2 (0 : Fin 1) q))
  · exact (self_product _ _ p q).trans (Finset.sum_congr rfl fun k _ => rfl)
  · exact (Cert.RowBroadcast.broadcastTo_1b_ab_apply _ broadcasts_S1x256_S2000x256 p q).trans
      (congrFun (shapeCast_self v17 shapeCasts_S1x256_S1x256) (ix2 (0 : Fin 1) q))

end Cert.KernelIdeal.BlockLayer

end
-- ==== Proof.KernelLayer.lean ====
/-
  The kernel's output array is the layer of the launch's arguments.

  At grid point t the body stores, at entry (p, q) of the output block, the clipped sum of BlockLayer's formula over the
  point's input blocks. Those blocks are rows 2000·t … 2000·t + 1999 of the summed edge features, the degrees and the
  node features, and the whole weights and biases (Blocks), so the stored value is entry (2000·t + p, q) of the layer: what
  point t writes back is block t of the layer. The output blocks are the 25 row bands of 2000 nodes and every node r lies
  in band r / 2000, so the bands cover the output array, which therefore ends holding the layer everywhere.
-/
import proofs.«125601_j32701880992040_1_alg».proof.Proof.Gen.KernelIdeal.Value
import proofs.«125601_j32701880992040_1_alg».proof.Proof.Blocks
import proofs.«125601_j32701880992040_1_alg».proof.Proof.BlockLayer
import proofs.«125601_j32701880992040_1_alg».proof.Proof.Spec

noncomputable section

namespace Cert.KernelIdeal.KernelLayer

open Cert.KernelIdeal Cert.KernelIdeal.Gen Cert.KernelIdeal.HostWindows Cert.KernelIdeal.Blocks Cert.NodeConv
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer of the launch's arguments on core `c`: of the summed edge features of the index and edge-feature arguments,
    the degrees, the node features, the two weight matrices and the two biases. -/
def result (c : Dev nD) : FVec Ideal ⟨2, ![50000, 256]⟩ .f32 :=
  layer (summed (m ((c : Thread nD τ).loc main_arg1)) (m ((c : Thread nD τ).loc main_arg2)))
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))

/-- What the body stores at entry (p, q) of point t's output block is entry (2000·t + p, q) of the layer. -/
theorem stored_entry (c : Dev nD) (t : Fin cfg0.N) (p : Fin 2000) (q : Fin 256) :
    k0_pay1 (F := Ideal) (iblk m c 0 t) (iblk m c 1 t) (iblk m c 2 t) (iblk m c 3 t) (iblk m c 5 t) (iblk m c 4 t) (iblk m c 6 t) (ix2 p q)
      = result m c (ix2 (node t p) q) := by
  refine (BlockLayer.pay_apply (iblk m c 0 t) (iblk m c 1 t) (iblk m c 2 t) (iblk m c 3 t) (iblk m c 5 t) (iblk m c 4 t) (iblk m c 6 t) p q).trans ?_
  show _ = entry _ _ _ _ _ _ _ (node t p) q
  unfold entry
  exact congrArg₂ max
    (congrArg₂ (· + ·)
      (congrArg₂ (· + ·)
        (congrArg₂ (· + ·)
          (Finset.sum_congr rfl fun k _ => congrArg₂ (· * ·)
            (congrArg₂ Ideal.div (summed_block m c t p k) (degree_block m c t p)) (pass_weights_block m c t k q))
          (pass_bias_block m c t q))
        (Finset.sum_congr rfl fun k _ => congrArg₂ (· * ·) (features_block m c t p k) (self_weights_block m c t k q)))
      (self_bias_block m c t q))
    rfl

/-- What point t writes back to the output array is block t of the layer. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S2000x64) hz, View.ld_unit_zero (S := S2000x1) hz, View.ld_unit_zero (S := S2000x256) hz,
    View.ld_unit_zero (S := S64x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k0_pay1 (F := Ideal) (iblk m c 0 t) (iblk m c 1 t) (iblk m c 2 t) (iblk m c 3 t) (iblk m c 5 t) (iblk m c 4 t) (iblk m c 6 t) (ix2 p q)
      = result m c (((cfg0.win 7).blk t).view.emb (ix2 p q))
  rw [out_block_index t p q]
  exact stored_entry m c t p q

/-- An index of the output array is in point t's block iff each coordinate is in the block's range on its axis. -/
theorem mem_blk (t : Fin cfg0.N) (i : S50000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v6).slice (win0_7.rect t)).set ↔ _
  rw [View.set_slice_whole, Rect.mem_set_unit]
  exact Iff.rfl

/-- Every index of the output array is in the block of the point its node's band names, and every point writes back. -/
theorem cover (i : S50000x256.Idx) : ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 25 := N_0
  have hb : (i 0).val / 2000 < cfg0.N := by rw [hN]; omega
  obtain ⟨-, -, -, -, -, -, -, ⟨e0, e1⟩⟩ := index_facts ⟨(i 0).val / 2000, hb⟩
  refine ⟨⟨(i 0).val / 2000, hb⟩, flush0_7 _, ?_⟩
  rw [mem_blk]
  intro a
  match a with
  | ⟨0, _⟩ =>
    show win0_7.index ⟨(i 0).val / 2000, hb⟩ (0 : Fin 2) * 2000 ≤ (i 0).val ∧ (i 0).val < win0_7.index ⟨(i 0).val / 2000, hb⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, hb⟩ (1 : Fin 2) * 256 ≤ (i 1).val ∧ (i 1).val < win0_7.index ⟨(i 0).val / 2000, hb⟩ (1 : Fin 2) * 256 + 256
    rw [e1]; omega

/-- The output array after the run is the layer of the launch's arguments. -/
theorem final (c : Dev nD) : (dats m 0 c).arrAt 7 cfg0.N = result m c :=
  (dats m 0 c).arrAt_eq_of_cover 7 (result m c) (fun t _ => flushed_eq m c t) cover

/-- The kernel's run: every weakly fair execution ends with the output array at the layer of the launch's arguments and
    the arguments as launched. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.KernelLayer

end
-- ==== Proof.lean ====
/-
  A graph layer — edge features summed into their destination nodes, divided by the node's degree, mapped linearly,
  added to a linear map of the node's own features, shifted by two biases and clipped at zero — computed by a kernel
  tiled over 25 bands of 2000 nodes, against the same layer written as whole-array operations.

  Over the extended reals both programs compute, at node r and output channel j,

    max ((((∑ k, A (r, k) / D r · Wp (k, j)) + bp j) + ∑ k, X (r, k) · Ws (k, j)) + bs j) 0,

  with the sums associated in this order in both, the quotient the total division of the extended reals in both, and the
  summed edge features A the same scatter-add of the same arguments in both; the kernel's narrowing of the products'
  operands is the identity there. So the two results are one function of the arguments (Spec: `layer`), and no property
  of the inputs is used: not their finiteness, not that a degree is nonzero.
  The kernel side: each point's stored block is a band of the layer (BlockLayer, Blocks, KernelLayer, over the arrays the
  host wrote before the launch, HostWindows), and the bands cover the output. The reference side: its last operation read
  at an index is the layer's entry (RefLayer). The two summed-feature terms are the same term (`summed_eq`).
  Each program runs, without a fault, leaving its arguments as launched; the kernel's idealization rewrote nothing, so what
  it must preserve is nothing.
-/
import proofs.«125601_j32701880992040_1_alg».proof.Defs
import proofs.«125601_j32701880992040_1_alg».proof.Proof.Gen.Kernel
import proofs.«125601_j32701880992040_1_alg».proof.Proof.Gen.Kernel.Skeleton
import proofs.«125601_j32701880992040_1_alg».proof.Proof.Gen.Kernel.Launch
import proofs.«125601_j32701880992040_1_alg».proof.Proof.Gen.Kernel.Points
import proofs.«125601_j32701880992040_1_alg».proof.Proof.Gen.Kernel.Frame
import proofs.«125601_j32701880992040_1_alg».proof.Proof.Gen.KernelIdeal
import proofs.«125601_j32701880992040_1_alg».proof.Proof.Gen.KernelIdeal.Skeleton
import proofs.«125601_j32701880992040_1_alg».proof.Proof.Gen.KernelIdeal.Launch
import proofs.«125601_j32701880992040_1_alg».proof.Proof.Gen.KernelIdeal.Points
import proofs.«125601_j32701880992040_1_alg».proof.Proof.Gen.KernelIdeal.Frame
import proofs.«125601_j32701880992040_1_alg».proof.Proof.Gen.KernelIdeal.Value
import proofs.«125601_j32701880992040_1_alg».proof.Proof.Gen.ReferenceIdeal
import proofs.«125601_j32701880992040_1_alg».proof.Proof.Gen.ReferenceIdeal.Run
import proofs.«125601_j32701880992040_1_alg».proof.Proof.Gen.ReferenceIdeal.Read
import proofs.«125601_j32701880992040_1_alg».proof.Proof.Gen.Pre_finite_inputs
import proofs.«125601_j32701880992040_1_alg».proof.Proof.RefLayer
import proofs.«125601_j32701880992040_1_alg».proof.Proof.KernelLayer
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The edge features summed into their destination nodes are the same function of the index vector and the edge features
    in both programs: the same scatter-add into the same zero array at the same index column. -/
theorem summed_eq (x1 : (⟨Cert.ReferenceIdeal.S1600000, .i32⟩ : BufTy).Contents (Elt Ideal))
    (x2 : (⟨Cert.ReferenceIdeal.S1600000x64, .f32⟩ : BufTy).Contents (Elt Ideal)) :
    Cert.ReferenceIdeal.Read.val_main_v2 (F := Ideal) x1 x2 = Cert.KernelIdeal.HostWindows.summed x1 x2 := rfl

/-- From memories that agree on the arguments both programs end with the layer of those arguments as their result. -/
theorem algebraic : Cert.algebraic_KernelIdeal_ReferenceIdeal := by
  intro m ρ m' ρ' _ hagree
  refine ⟨fun c => Cert.KernelIdeal.KernelLayer.result m c, Cert.KernelIdeal.KernelLayer.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v15_eq, Cert.ReferenceIdeal.RefLayer.result_eq, summed_eq, a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
